-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x64x2048 : Shape := ⟨4, ![2, 16, 64, 2048]⟩
abbrev S2x2048 : Shape := ⟨2, ![2, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x64x2048 : S_.BroadcastsInDim S2x16x64x2048 (![] : Fin 0 → Fin S2x16x64x2048.rank)
  reducesTo_S2x16x64x2048_S_d0_1_2_3 : S2x16x64x2048.ReducesTo [0, 1, 2, 3] S_

variable [Facts]

def fn {F : FTy → Type} [FloatOps F] (main_arg0 : FVec F S2x16x2048x64 .f32) (main_arg1 : FVec F S2x16x64x2048 .f32) (main_arg2 : FVec F S2x16x2048x64 .f32) (main_arg3 : IVec S2x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x64x2048 .f32 := Host.absf main_arg1
  let main_cst_0 : FVec F S_ .f32 := constant S_ .f32 0x7F800000#32
  let main_v5 : FVec F S2x16x64x2048 .f32 := broadcastInDim S2x16x64x2048 ![] bcast_S_S2x16x64x2048 main_cst_0
  let main_v6 : IVec S2x16x64x2048 1 := cmpf .olt main_v4 main_v5
  let main_c_1 : IVec S_ 1 := constantI S_ 1 1#1
  let main_v7 : IVec S_ 1 := (fun x v => Host.reduce IntOp.andi x v reducesTo_S2x16x64x2048_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x64x2048 : Shape := ⟨4, ![2, 16, 64, 2048]⟩
abbrev S2x2048 : Shape := ⟨2, ![2, 2048]⟩
abbrev S2x2048x1 : Shape := ⟨3, ![2, 2048, 1]⟩
abbrev S1x1x512x64 : Shape := ⟨4, ![1, 1, 512, 64]⟩
abbrev S1x1x64x2048 : Shape := ⟨4, ![1, 1, 64, 2048]⟩
abbrev S1x1x2048x64 : Shape := ⟨4, ![1, 1, 2048, 64]⟩
abbrev S1x512x1 : Shape := ⟨3, ![1, 512, 1]⟩
abbrev S512x64 : Shape := ⟨2, ![512, 64]⟩
abbrev S64x2048 : Shape := ⟨2, ![64, 2048]⟩
abbrev S512x2048 : Shape := ⟨2, ![512, 2048]⟩
abbrev S512x1 : Shape := ⟨2, ![512, 1]⟩
abbrev S512 : Shape := ⟨1, ![512]⟩
abbrev S2048x64 : Shape := ⟨2, ![2048, 64]⟩

abbrev nBuf : Space → Nat
  | .hbm => 6
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S2x2048, .i32⟩
  | .hbm, ⟨4, _⟩ => ⟨S2x2048x1, .i32⟩
  | .hbm, ⟨5, _⟩ => ⟨S2x16x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x64x2048, .f32⟩
  | .local _ .vmem, ⟨3, _⟩ => ⟨S1x1x64x2048, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x512x1, .i32⟩
  | .local _ .vmem, ⟨7, _⟩ => ⟨S1x512x1, .i32⟩
  | .local _ .vmem, ⟨8, _⟩ => ⟨S1x1x512x64, .f32⟩
  | .local _ .vmem, ⟨9, _⟩ => ⟨S1x1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S2x2048_S2x2048x1 : S2x2048.ShapeCasts S2x2048x1
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x2048 : S512x1.Broadcasts S512x2048
  reduces_S512x2048_S512 : S512x2048.Reduces [1] S512
  shapeCasts_S512_S512x1 : S512.ShapeCasts S512x1
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2048.size a ≤ S2x16x64x2048.size a
  hwx0_1 : ∀ i : grid0.Coords, EltTy.bits .f32 = 32 ∨ (Rect.block (s := S2x16x64x2048) S1x1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x2048x1.size a
  hwx0_3 : ∀ i : grid0.Coords, EltTy.bits .i32 = 32 ∨ (Rect.block (s := S2x2048x1) S1x512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x64x2048 : Shape := ⟨4, ![2, 16, 64, 2048]⟩
abbrev S2x2048 : Shape := ⟨2, ![2, 2048]⟩
abbrev S2x16x2048x2048 : Shape := ⟨4, ![2, 16, 2048, 2048]⟩
abbrev S_ : Shape := ⟨0, ![]⟩
abbrev S2x1x2048x1 : Shape := ⟨4, ![2, 1, 2048, 1]⟩
abbrev S2x16x2048 : Shape := ⟨3, ![2, 16, 2048]⟩
abbrev S2x16x2048x1 : Shape := ⟨4, ![2, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S2x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S2x2048, .f32⟩
  | .hbm, ⟨14, _⟩ => ⟨S2x2048, .f32⟩
  | .hbm, ⟨15, _⟩ => ⟨S2x1x2048x1, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x2048 : S_.BroadcastsInDim S2x2048 (![] : Fin 0 → Fin S2x2048.rank)
  shapeCasts_S2x2048_S2x1x2048x1 : S2x2048.ShapeCasts S2x1x2048x1
  bcast_S2x1x2048x1_S2x16x2048x2048_0_1_2_3 : S2x1x2048x1.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x64x2048_S2x16x2048x2048_3_2_2_3_01_01_wf : DotDims.WF S2x16x2048x64 S2x16x64x2048 S2x16x2048x2048 [3] [2] [2] [3] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x64x2048_S2x16x2048x2048_3_2_2_3_01_01 : DotDims S2x16x2048x64 S2x16x64x2048 S2x16x2048x2048 where
  lhsContracting := [3]
  rhsContracting := [2]
  lhsNonContracting := [2]
  rhsNonContracting := [3]
  lhsBatch := [0, 1]
  rhsBatch := [0, 1]
  wf := dot_S2x16x2048x64_S2x16x64x2048_S2x16x2048x2048_3_2_2_3_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.SoftmaxRow.lean ====
/-
  One query row of scaled, additively biased softmax attention, on the extended reals.

  For a query row with scores `sc t` over the 2048 key positions and a value column `v t`, the
  attention output is the softmax-weighted sum  ∑ₜ (e^(sc t − M) / L) · v t,  where M is the
  row's maximum (the running maximum started from `ninf`) and L = ∑ᵤ e^(sc u − M).

  The score of query row s against key t is the contraction over the 64 head coordinates of
  query · key, scaled by 1/8 = 1/√64, plus a bias that depends on the query row only:
  (1 − mask) · (−10¹², as a binary32 value).  The scale may sit inside the contraction,
  ∑_d (q_d · 1/8) · k_d, or outside it, (∑_d q_d · k_d) · 1/8; the two agree because a
  non-negative real factor distributes over any sum of extended reals (infinite terms included),
  so no finiteness of the inputs is needed for it.
-/
import Idealize.ShloMosaic.PureOps.Ideal
import Idealize.ShloMosaic.Lib.ValueIdx

noncomputable section

namespace Cert.Attn

open Idealize.ShloMosaic Idealize.ShloMosaic.ValueIdx

/-! ## The algebraic law: a non-negative real factor leaves a sum -/

/-- A factor `0 ≤ c < ⊤` distributes over a finite sum of extended reals. -/
theorem sum_mul_of_nonneg_of_ne_top {ι : Type} (s : Finset ι) (a : ι → EReal) {c : EReal} (h0 : 0 ≤ c) (ht : c ≠ ⊤) :
    (∑ i ∈ s, a i) * c = ∑ i ∈ s, a i * c := by
  classical
  induction s using Finset.induction_on with
  | empty => simp
  | insert i s hi ih =>
    rw [Finset.sum_insert hi, Finset.sum_insert hi, EReal.right_distrib_of_nonneg_of_ne_top h0 ht, ih]

/-- The scale inside the contraction is the scale outside it. -/
theorem scale_inside_eq_outside (q k : Fin 64 → EReal) {c : EReal} (h0 : 0 ≤ c) (ht : c ≠ ⊤) :
    ∑ d : Fin 64, (q d * c) * k d = (∑ d : Fin 64, q d * k d) * c := by
  rw [sum_mul_of_nonneg_of_ne_top _ _ h0 ht]
  exact Finset.sum_congr rfl fun d _ => by rw [mul_assoc, mul_comm c, ← mul_assoc]

/-! ## The constants -/

/-- The scale 1/√64: the binary32 pattern of 0.125. -/
abbrev scale : EReal := Ideal.ofBits .f32 0x3E000000#32
/-- The binary32 pattern of 1. -/
abbrev one : EReal := Ideal.ofBits .f32 0x3F800000#32
/-- The binary32 value nearest −10¹²: the bias of a masked-out query row. -/
abbrev negBig : EReal := Ideal.ofBits .f32 0xD368D4A5#32
/-- −∞, where the running maximum starts. -/
abbrev negInf : EReal := Ideal.ofBits .f32 0xFF800000#32

/-- The scale is the real number 1/8. -/
theorem scale_eq : scale = ((1 / 8 : ℝ) : EReal) := by
  simp [scale, Ideal.ofBits, Ideal.ieee, -EReal.coe_mul]; norm_num

theorem scale_nonneg : 0 ≤ scale := by
  rw [scale_eq]; exact EReal.coe_nonneg.mpr (by norm_num)

theorem scale_ne_top : scale ≠ ⊤ := by
  rw [scale_eq]; exact EReal.coe_ne_top _

/-! ## One row -/

/-- The bias of a query row whose mask word is `w`: (1 − w) · negBig, `w` read as a signed integer. -/
def bias (w : BitVec 32) : EReal := (one - FloatOps.sitofp (F := Ideal) .f32 w) * negBig

/-- The softmax-weighted sum of the column `v` under the scores `sc`. -/
def softRow (sc v : Fin 2048 → EReal) : EReal :=
  ∑ t : Fin 2048, Ideal.div (Ideal.exp (sc t - Finset.univ.fold max negInf sc))
      (∑ u : Fin 2048, Ideal.exp (sc u - Finset.univ.fold max negInf sc)) * v t

/-- Taking the maximum with the starting value once more changes nothing. -/
theorem max_start_fold (a : EReal) (sc : Fin 2048 → EReal) :
    max a (Finset.univ.fold max a sc) = Finset.univ.fold max a sc :=
  max_eq_right ((Finset.le_fold_max a).mpr (Or.inl le_rfl))

/-- The row's scores with the scale outside the contraction. -/
def scoreOut (q : Fin 64 → EReal) (k : Fin 64 → Fin 2048 → EReal) (w : BitVec 32) (t : Fin 2048) : EReal :=
  (∑ d : Fin 64, q d * k d t) * scale + bias w

/-- The row's scores with the scale inside the contraction. -/
def scoreIn (q : Fin 64 → EReal) (k : Fin 64 → Fin 2048 → EReal) (w : BitVec 32) (t : Fin 2048) : EReal :=
  (∑ d : Fin 64, (q d * scale) * k d t) + bias w

theorem scoreIn_eq_scoreOut (q : Fin 64 → EReal) (k : Fin 64 → Fin 2048 → EReal) (w : BitVec 32) :
    scoreIn q k w = scoreOut q k w := by
  funext t
  unfold scoreIn scoreOut
  rw [scale_inside_eq_outside q (fun d => k d t) scale_nonneg scale_ne_top]

/-! ## The whole array -/

/-- Attention at batch `b`, head `h`, query row `s`, output coordinate `e`. -/
def attnAt (Q : (⟨4, ![2, 16, 2048, 64]⟩ : Shape).Idx → EReal) (K : (⟨4, ![2, 16, 64, 2048]⟩ : Shape).Idx → EReal)
    (V : (⟨4, ![2, 16, 2048, 64]⟩ : Shape).Idx → EReal) (Mk : (⟨2, ![2, 2048]⟩ : Shape).Idx → BitVec 32)
    (b : Fin 2) (h : Fin 16) (s : Fin 2048) (e : Fin 64) : EReal :=
  softRow (scoreOut (fun d => Q (ix4 b h s d)) (fun d t => K (ix4 b h d t)) (Mk (ix2 b s))) (fun t => V (ix4 b h t e))

/-- The attention output as one function of the four argument arrays, index by index. -/
def attn (Q : (⟨4, ![2, 16, 2048, 64]⟩ : Shape).Idx → EReal) (K : (⟨4, ![2, 16, 64, 2048]⟩ : Shape).Idx → EReal)
    (V : (⟨4, ![2, 16, 2048, 64]⟩ : Shape).Idx → EReal) (Mk : (⟨2, ![2, 2048]⟩ : Shape).Idx → BitVec 32) :
    (⟨4, ![2, 16, 2048, 64]⟩ : Shape).Idx → EReal :=
  fun i => attnAt Q K V Mk (i 0) (i 1) (i 2) (i 3)

end Cert.Attn

end
-- ==== Proof.RefIsAttn.lean ====
/-
  The reference program computes attention.

  Read one operation at a time, the reference's result at (b, h, s, e) is
    ∑ₜ (e^(S t − M) / (0 + ∑ᵤ e^(S u − M))) · value[b, h, t, e],
  where S t = (∑_d query[b, h, s, d] · key[b, h, d, t]) · 1/8 + (1 − mask[b, s]) · negBig is the
  score of query row s against key t, and M = max(−∞, max over t from −∞ of S t).  The outer
  maximum with −∞ and the initial 0 of the sum change nothing, so this is the softmax row of the
  scores with the scale outside the contraction.
-/
import proofs.«115690_j11252814315826_2_alg».proof.Proof.Gen.ReferenceIdeal.Read
import proofs.«115690_j11252814315826_2_alg».proof.Proof.SoftmaxRow
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Attn

variable (x0 : (⟨S2x16x2048x64, .f32⟩ : BufTy).Contents (Elt Ideal)) (x1 : (⟨S2x16x64x2048, .f32⟩ : BufTy).Contents (Elt Ideal))
  (x2 : (⟨S2x16x2048x64, .f32⟩ : BufTy).Contents (Elt Ideal)) (x3 : (⟨S2x2048, .i32⟩ : BufTy).Contents (Elt Ideal))

/-! ## Where each operation reads its operands, by coordinates -/

theorem lidx_scores (b : Fin 2) (h : Fin 16) (s t : Fin 2048) (d : Fin 64) :
    lidx_main_v0 (ix4 b h s t) d = ix4 b h s d :=
  funext fun a => Fin.ext (by match a with | ⟨0, _⟩ => rfl | ⟨1, _⟩ => rfl | ⟨2, _⟩ => rfl | ⟨3, _⟩ => rfl)

theorem ridx_scores (b : Fin 2) (h : Fin 16) (s t : Fin 2048) (d : Fin 64) :
    ridx_main_v0 (ix4 b h s t) d = ix4 b h d t :=
  funext fun a => Fin.ext (by match a with | ⟨0, _⟩ => rfl | ⟨1, _⟩ => rfl | ⟨2, _⟩ => rfl | ⟨3, _⟩ => rfl)

/-- The bias of (b, h, s, t) is read at mask[b, s]: broadcast from [2, 1, 2048, 1], which is [2, 2048] re-laid. -/
theorem idx_bias (b : Fin 2) (h : Fin 16) (s t : Fin 2048) :
    idx_main_v8 (idx_main_v9 (ix4 b h s t)) = ix2 b s :=
  funext fun a => Fin.ext (by
    have hb := b.isLt; have hs := s.isLt
    match a with
    | ⟨0, _⟩ => show (((b.val * 1 + 0) * 2048 + s.val) * 1 + 0) / 2048 = b.val; omega
    | ⟨1, _⟩ => show (((b.val * 1 + 0) * 2048 + s.val) * 1 + 0) % 2048 = s.val; omega)

/-- A per-row quantity kept as a size-one last axis and broadcast over the keys is read at the row. -/
theorem idx_row (b : Fin 2) (h : Fin 16) (s t : Fin 2048) :
    idx_main_v14 (idx_main_v15 (ix4 b h s t)) = ix3 b h s :=
  funext fun a => Fin.ext (by match a with | ⟨0, _⟩ => rfl | ⟨1, _⟩ => rfl | ⟨2, _⟩ => rfl)

theorem idx_row' (b : Fin 2) (h : Fin 16) (s t : Fin 2048) :
    idx_main_v19 (idx_main_v20 (ix4 b h s t)) = ix3 b h s :=
  funext fun a => Fin.ext (by match a with | ⟨0, _⟩ => rfl | ⟨1, _⟩ => rfl | ⟨2, _⟩ => rfl)

theorem idx_sum (b : Fin 2) (h : Fin 16) (s u : Fin 2048) :
    idx_main_v18 (ix3 b h s) u = ix4 b h s u :=
  funext fun a => Fin.ext (by match a with | ⟨0, _⟩ => rfl | ⟨1, _⟩ => rfl | ⟨2, _⟩ => rfl | ⟨3, _⟩ => rfl)

theorem lidx_out (b : Fin 2) (h : Fin 16) (s : Fin 2048) (e : Fin 64) (t : Fin 2048) :
    lidx_main_v22 (ix4 b h s e) t = ix4 b h s t :=
  funext fun a => Fin.ext (by match a with | ⟨0, _⟩ => rfl | ⟨1, _⟩ => rfl | ⟨2, _⟩ => rfl | ⟨3, _⟩ => rfl)

theorem ridx_out (b : Fin 2) (h : Fin 16) (s : Fin 2048) (e : Fin 64) (t : Fin 2048) :
    ridx_main_v22 (ix4 b h s e) t = ix4 b h t e :=
  funext fun a => Fin.ext (by match a with | ⟨0, _⟩ => rfl | ⟨1, _⟩ => rfl | ⟨2, _⟩ => rfl | ⟨3, _⟩ => rfl)

/-- The index of row (b, h, s) with key position k put back on the reduced axis. -/
theorem lift_keys (hr : S2x16x2048x2048.Reduces [3] S2x16x2048) (b : Fin 2) (h : Fin 16) (s : Fin 2048)
    (k : Fin (S2x16x2048x2048.size 3)) : hr.lift (ix3 b h s) k = ix4 b h s (⟨k.val, k.isLt⟩ : Fin 2048) := by
  funext a; apply Fin.ext
  match a with | ⟨0, _⟩ => rfl | ⟨1, _⟩ => rfl | ⟨2, _⟩ => rfl | ⟨3, _⟩ => rfl

/-! ## The stages -/

/-- The row's scores, the scale outside the contraction. -/
abbrev sc (b : Fin 2) (h : Fin 16) (s : Fin 2048) : Fin 2048 → EReal :=
  scoreOut (fun d => x0 (ix4 b h s d)) (fun d t => x1 (ix4 b h d t)) (x3 (ix2 b s))

/-- The biased scores at (b, h, s, t). -/
theorem scores_apply (b : Fin 2) (h : Fin 16) (s t : Fin 2048) :
    val_main_v10 (F := Ideal) x0 x1 x3 (ix4 b h s t) = sc x0 x1 x3 b h s t := by
  rw [val_main_v10_apply, val_main_v2_apply, val_main_v0_apply, val_main_v1_apply, val_main_cst_apply,
    val_main_v9_apply, val_main_v8_apply, val_main_v7_apply, val_main_v5_apply, val_main_v4_apply, val_main_cst_0_apply,
    val_main_v3_apply, val_main_v6_apply, val_main_cst_1_apply]
  simp only [lidx_scores, ridx_scores, idx_bias]
  rfl

/-- A maximum-reduction over the key axis, at row (b, h, s): the fold of `max` from the initial value over the row's
    2048 entries, in any order. -/
theorem hostmax_apply (y : S2x16x2048x2048.Idx → EReal) (init : S_.Idx → EReal) (b : Fin 2) (h : Fin 16) (s : Fin 2048) :
    Host.reduce (FloatOps.maximumf (F := Ideal) (φ := .f32)) y init reducesTo_S2x16x2048x2048_S2x16x2048_d3 h_S_ (ix3 b h s)
      = (Finset.univ : Finset (Fin 2048)).fold max (init (Shape.Idx.first h_S_)) (fun k => y (ix4 b h s k)) := by
  refine (Host.reduce_eq_fold_single (FloatOps.maximumf (F := Ideal) (φ := .f32)) y init
    reducesTo_S2x16x2048x2048_S2x16x2048_d3 (by decide) h_S_ (ix3 b h s)).trans ?_
  refine Finset.fold_congr fun k _ => ?_
  exact congrArg y (lift_keys _ b h s k)

/-- The row's maximum: the reduction from −∞ over the keys, and once more against −∞. -/
theorem rowmax_apply (b : Fin 2) (h : Fin 16) (s : Fin 2048) :
    val_main_v13 (F := Ideal) x0 x1 x3 (ix3 b h s) = Finset.univ.fold max negInf (sc x0 x1 x3 b h s) := by
  rw [val_main_v13_apply, val_main_v12_apply, val_main_cst_3_apply]
  unfold val_main_v11
  rw [hostmax_apply]
  refine Eq.trans ?_ (max_start_fold negInf (sc x0 x1 x3 b h s))
  refine congrArg (max negInf) (Finset.fold_congr fun k _ => ?_)
  exact scores_apply x0 x1 x3 b h s k

/-- The exponentials e^(S t − M). -/
theorem exps_apply (b : Fin 2) (h : Fin 16) (s t : Fin 2048) :
    val_main_v17 (F := Ideal) x0 x1 x3 (ix4 b h s t)
      = Ideal.exp (sc x0 x1 x3 b h s t - Finset.univ.fold max negInf (sc x0 x1 x3 b h s)) := by
  rw [val_main_v17_apply, val_main_v16_apply, val_main_v15_apply, val_main_v14_apply, idx_row, rowmax_apply, scores_apply]
  rfl

/-- The row's normaliser: 0 plus the sum of the exponentials. -/
theorem denom_apply (b : Fin 2) (h : Fin 16) (s : Fin 2048) :
    val_main_v18 (F := Ideal) x0 x1 x3 (ix3 b h s)
      = ∑ u : Fin 2048, Ideal.exp (sc x0 x1 x3 b h s u - Finset.univ.fold max negInf (sc x0 x1 x3 b h s)) := by
  rw [val_main_v18_apply, val_main_cst_4_apply]
  refine (congrArg (· + _) (Ideal.ofBits_zero_f32)).trans ((zero_add _).trans ?_)
  exact Finset.sum_congr rfl fun u _ => by rw [idx_sum, exps_apply]

/-- The softmax weights. -/
theorem weights_apply (b : Fin 2) (h : Fin 16) (s t : Fin 2048) :
    val_main_v21 (F := Ideal) x0 x1 x3 (ix4 b h s t)
      = Ideal.div (Ideal.exp (sc x0 x1 x3 b h s t - Finset.univ.fold max negInf (sc x0 x1 x3 b h s)))
          (∑ u : Fin 2048, Ideal.exp (sc x0 x1 x3 b h s u - Finset.univ.fold max negInf (sc x0 x1 x3 b h s))) := by
  rw [val_main_v21_apply, val_main_v20_apply, val_main_v19_apply, idx_row', denom_apply, exps_apply]
  rfl

/-! ## The result -/

/-- The reference's result is attention of its four arguments. -/
theorem result_eq_attn : val_main_v22 (F := Ideal) x0 x1 x2 x3 = attn x0 x1 x2 x3 := by
  funext i
  obtain ⟨b, h, s, e, rfl⟩ : ∃ (b : Fin 2) (h : Fin 16) (s : Fin 2048) (e : Fin 64), i = ix4 b h s e :=
    ⟨i 0, i 1, i 2, i 3, eq_ix4 i⟩
  rw [val_main_v22_apply]
  show _ = softRow (sc x0 x1 x3 b h s) (fun t => x2 (ix4 b h t e))
  unfold softRow
  exact Finset.sum_congr rfl fun t _ => by rw [lidx_out, ridx_out, weights_apply]

end Cert.ReferenceIdeal.RefValue

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.LibUnitAxes.lean ====
/-
  Two leading unit axes dropped by a re-layout.

  A `[1, 1, a, b]` array re-laid as `[a, b]` holds, at `(i, j)`, the entry `(0, 0, i, j)`, and an
  `[a, b]` array re-laid as `[1, 1, a, b]` holds, at `(0, 0, i, j)`, the entry `(i, j)`: both
  positions are number `i · b + j` in row-major order.
-/
import Idealize.ShloMosaic.Lib.Pipeline.Value
import Idealize.ShloMosaic.Lib.ValueIdx

namespace Cert.LibUnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp)

end Cert.LibUnitAxes
-- ==== Proof.KernelRow.lean ====
/-
  What the kernel's body computes from its four loaded blocks.

  At one grid point the body holds a block of 512 query rows (`[1,1,512,64]`), the whole key
  (`[1,1,64,2048]`) and value (`[1,1,2048,64]`) of that batch and head, and the 512 mask words of
  those query rows (`[1,512,1]`).  Its result at row r, output coordinate e is the softmax row of
  the scores  ∑_d (query[r, d] · 1/8) · key[d, t] + (1 − mask[r]) · negBig  — the scale inside the
  contraction — against the value column e.  The per-row maximum and normaliser are lane
  reductions kept as a [512, 1] column and broadcast back over the 2048 keys.
-/
import proofs.«115690_j11252814315826_2_alg».proof.Proof.Gen.KernelIdeal.Skeleton
import proofs.«115690_j11252814315826_2_alg».proof.Proof.SoftmaxRow
import proofs.«115690_j11252814315826_2_alg».proof.Proof.LibColumn
import proofs.«115690_j11252814315826_2_alg».proof.Proof.LibUnitAxes
import Idealize.ShloMosaic.PureOps.Ideal.Laws
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx Cert.Attn

/-- query block × key: [512, 64] · [64, 2048]. -/
abbrev Dqk := dot_S512x64_S64x2048_S512x2048_1_0_0_1_n_n
/-- weights × value: [512, 2048] · [2048, 64]. -/
abbrev Dpv := dot_S512x2048_S2048x64_S512x64_1_0_0_1_n_n

/-! ## The two contractions read at an index -/

theorem qk_lhs0 (j : S512x2048.Idx) (q : Dqk.contr.Idx) : (Dqk.lhsIdx j q 0).val = (j 0).val := by
  unfold DotDims.lhsIdx
  rw [dif_neg (show ¬(0 : Fin S512x64.rank) ∈ Dqk.lhsBatch by decide), dif_pos (show (0 : Fin S512x64.rank) ∈ Dqk.lhsNonContracting by decide)]
  rfl
theorem qk_lhs1 (j : S512x2048.Idx) (q : Dqk.contr.Idx) : (Dqk.lhsIdx j q 1).val = (q ⟨0, by decide⟩).val :=
  Dqk.lhsIdx_val_of_single rfl j q
theorem qk_rhs0 (j : S512x2048.Idx) (q : Dqk.contr.Idx) : (Dqk.rhsIdx j q 0).val = (q ⟨0, by decide⟩).val :=
  Dqk.rhsIdx_val_of_single rfl j q
theorem qk_rhs1 (j : S512x2048.Idx) (q : Dqk.contr.Idx) : (Dqk.rhsIdx j q 1).val = (j 1).val := by
  unfold DotDims.rhsIdx
  rw [dif_neg (show ¬(1 : Fin S64x2048.rank) ∈ Dqk.rhsBatch by decide), dif_pos (show (1 : Fin S64x2048.rank) ∈ Dqk.rhsNonContracting by decide)]
  rfl

/-- The score contraction at (r, t): the sum over the 64 head coordinates. -/
theorem qk_apply (A : FVec Ideal S512x64 .bf16) (B : FVec Ideal S64x2048 .bf16) (r : Fin 512) (t : Fin 2048) :
    matmul Dqk none A B (constant (F := Ideal) S512x2048 .f32 0x00000000#32) (ix2 r t) = ∑ d : Fin 64, A (ix2 r d) * B (ix2 d t) := by
  refine (Ideal.matmul_constant_zero_apply Dqk none A B (ix2 r t)).trans ?_
  rw [← Equiv.sum_comp (contrEquiv1 Dqk 64 rfl rfl).symm]
  refine Finset.sum_congr rfl fun k _ => ?_
  have hk := contrEquiv1_symm_val Dqk 64 rfl rfl k
  have el : Dqk.lhsIdx (ix2 r t) ((contrEquiv1 Dqk 64 rfl rfl).symm k) = ix2 r k := funext fun a => Fin.ext (by
    match a with
    | ⟨0, _⟩ => exact qk_lhs0 _ _
    | ⟨1, _⟩ => exact (qk_lhs1 _ _).trans hk)
  have er : Dqk.rhsIdx (ix2 r t) ((contrEquiv1 Dqk 64 rfl rfl).symm k) = ix2 k t := funext fun a => Fin.ext (by
    match a with
    | ⟨0, _⟩ => exact (qk_rhs0 _ _).trans hk
    | ⟨1, _⟩ => exact qk_rhs1 _ _)
  rw [el, er]

theorem pv_lhs0 (j : S512x64.Idx) (q : Dpv.contr.Idx) : (Dpv.lhsIdx j q 0).val = (j 0).val := by
  unfold DotDims.lhsIdx
  rw [dif_neg (show ¬(0 : Fin S512x2048.rank) ∈ Dpv.lhsBatch by decide), dif_pos (show (0 : Fin S512x2048.rank) ∈ Dpv.lhsNonContracting by decide)]
  rfl
theorem pv_lhs1 (j : S512x64.Idx) (q : Dpv.contr.Idx) : (Dpv.lhsIdx j q 1).val = (q ⟨0, by decide⟩).val :=
  Dpv.lhsIdx_val_of_single rfl j q
theorem pv_rhs0 (j : S512x64.Idx) (q : Dpv.contr.Idx) : (Dpv.rhsIdx j q 0).val = (q ⟨0, by decide⟩).val :=
  Dpv.rhsIdx_val_of_single rfl j q
theorem pv_rhs1 (j : S512x64.Idx) (q : Dpv.contr.Idx) : (Dpv.rhsIdx j q 1).val = (j 1).val := by
  unfold DotDims.rhsIdx
  rw [dif_neg (show ¬(1 : Fin S2048x64.rank) ∈ Dpv.rhsBatch by decide), dif_pos (show (1 : Fin S2048x64.rank) ∈ Dpv.rhsNonContracting by decide)]
  rfl

/-- The output contraction at (r, e): the sum over the 2048 key positions. -/
theorem pv_apply (A : FVec Ideal S512x2048 .bf16) (B : FVec Ideal S2048x64 .bf16) (r : Fin 512) (e : Fin 64) :
    matmul Dpv none A B (constant (F := Ideal) S512x64 .f32 0x00000000#32) (ix2 r e) = ∑ t : Fin 2048, A (ix2 r t) * B (ix2 t e) := by
  refine (Ideal.matmul_constant_zero_apply Dpv none A B (ix2 r e)).trans ?_
  rw [← Equiv.sum_comp (contrEquiv1 Dpv 2048 rfl rfl).symm]
  refine Finset.sum_congr rfl fun k _ => ?_
  have hk := contrEquiv1_symm_val Dpv 2048 rfl rfl k
  have el : Dpv.lhsIdx (ix2 r e) ((contrEquiv1 Dpv 2048 rfl rfl).symm k) = ix2 r k := funext fun a => Fin.ext (by
    match a with
    | ⟨0, _⟩ => exact pv_lhs0 _ _
    | ⟨1, _⟩ => exact (pv_lhs1 _ _).trans hk)
  have er : Dpv.rhsIdx (ix2 r e) ((contrEquiv1 Dpv 2048 rfl rfl).symm k) = ix2 k e := funext fun a => Fin.ext (by
    match a with
    | ⟨0, _⟩ => exact (pv_rhs0 _ _).trans hk
    | ⟨1, _⟩ => exact pv_rhs1 _ _)
  rw [el, er]

/-! ## A per-row quantity kept as a column and broadcast over the keys -/

/-- A length-512 vector kept as a [512, 1] column and broadcast to [512, 2048] reads, at (r, t), the vector at r. -/
theorem column_apply (x : FVec Ideal S512 .f32) (r : Fin 512) (t : Fin 2048) :
    broadcastTo S512x2048 (shapeCast S512x1 x shapeCasts_S512_S512x1) broadcasts_S512x1_S512x2048 (ix2 r t) = x (ix1 r) :=
  (LibColumn.broadcastTo_a1_ab_apply _ broadcasts_S512x1_S512x2048 r t).trans
    (LibColumn.shapeCast_a_a1_apply x shapeCasts_S512_S512x1 r 0)

/-- The row maximum of a [512, 2048] block, started from −∞: the fold of `max` over the row. -/
theorem rowMax_apply (S : FVec Ideal S512x2048 .f32) (hφ : FKind.Formats .f32)
    (hacc : (0xFF800000#32 : BitVec 32) = FKind.maximumf.neutral .f32 hφ) (r : Fin 512) :
    multiReduction .maximumf [1] S512 S 0xFF800000#32 reduces_S512x2048_S512 hφ hacc (ix1 r)
      = (Finset.univ : Finset (Fin 2048)).fold max negInf (fun t => S (ix2 r t)) := by
  refine (Ideal.multiReduction_maximumf_single S 0xFF800000#32 reduces_S512x2048_S512 hφ hacc (ix1 r)).trans ?_
  refine Finset.fold_congr fun k _ => ?_
  exact congrArg S (LibColumn.lift_cols _ r k)

/-- The row sum of a [512, 2048] block. -/
theorem rowSum_apply (E : FVec Ideal S512x2048 .f32) (hφ : FKind.Formats .f32)
    (hacc : (0x00000000#32 : BitVec 32) = FKind.add.neutral .f32 hφ) (r : Fin 512) :
    multiReduction .add [1] S512 E 0x00000000#32 reduces_S512x2048_S512 hφ hacc (ix1 r) = ∑ u : Fin 2048, E (ix2 r u) := by
  refine (Ideal.multiReduction_add_single E 0x00000000#32 reduces_S512x2048_S512 hφ hacc (ix1 r)).trans ?_
  exact Finset.sum_congr rfl fun k _ => congrArg E (LibColumn.lift_cols _ r k)

/-! ## The body in two steps: the scores, then the softmax row against the value block -/

/-- The biased scores of the 512 query rows against the 2048 keys, as the body computes them. -/
def scores (P0 : Vec Ideal S1x1x512x64 .f32) (P1 : Vec Ideal S1x1x64x2048 .f32) (P2 : Vec Ideal S1x512x1 .i32) : FVec Ideal S512x2048 .f32 :=
  addf
    (matmul Dqk none
      (truncf .bf16 (mulf (shapeCast S512x64 P0 shapeCasts_S1x1x512x64_S512x64) (broadcast S512x64 (Scalar.ofBits .f32 0x3E000000#32))) bitsLt_bf16_f32)
      (truncf .bf16 (shapeCast S64x2048 P1 shapeCasts_S1x1x64x2048_S64x2048) bitsLt_bf16_f32)
      (constant S512x2048 .f32 0x00000000#32))
    (broadcastTo S512x2048
      (mulf (subf (broadcast S512x1 (Scalar.ofBits .f32 0x3F800000#32)) (sitofp .f32 (shapeCast S512x1 P2 shapeCasts_S1x512x1_S512x1)))
        (broadcast S512x1 (Scalar.ofBits .f32 0xD368D4A5#32)))
      broadcasts_S512x1_S512x2048)

/-- The scores at (r, t): the contraction with the scale inside, plus the row's bias. -/
theorem scores_apply (P0 : Vec Ideal S1x1x512x64 .f32) (P1 : Vec Ideal S1x1x64x2048 .f32) (P2 : Vec Ideal S1x512x1 .i32)
    (r : Fin 512) (t : Fin 2048) :
    scores P0 P1 P2 (ix2 r t)
      = scoreIn (fun d => P0 (ix4 (0 : Fin 1) (0 : Fin 1) r d)) (fun d u => P1 (ix4 (0 : Fin 1) (0 : Fin 1) d u)) (P2 (ix3 (0 : Fin 1) r (0 : Fin 1))) t := by
  unfold scores scoreIn
  refine congrArg₂ (· + ·) ((qk_apply _ _ r t).trans (Finset.sum_congr rfl fun d _ => ?_)) ?_
  · refine congrArg₂ (· * ·) (congrArg (· * scale) ?_) ?_
    · exact LibUnitAxes.shapeCast_11ab_ab_apply P0 shapeCasts_S1x1x512x64_S512x64 r d
    · exact LibUnitAxes.shapeCast_11ab_ab_apply P1 shapeCasts_S1x1x64x2048_S64x2048 d t
  · refine (LibColumn.broadcastTo_a1_ab_apply _ broadcasts_S512x1_S512x2048 r t).trans ?_
    unfold bias
    refine congrArg (fun w => (one - FloatOps.sitofp (F := Ideal) .f32 w) * negBig) ?_
    exact shapeCast_1ab_ab_apply P2 shapeCasts_S1x512x1_S512x1 r (0 : Fin 1)

/-- The softmax row of a score block against the value block, as the body computes it. -/
def softBlock (S : FVec Ideal S512x2048 .f32) (P3 : Vec Ideal S1x1x2048x64 .f32) : FVec Ideal S512x64 .f32 :=
  matmul Dpv none
    (truncf .bf16
      (divf
        (exp (subf S (broadcastTo S512x2048 (shapeCast S512x1 (multiReduction .maximumf [1] S512 S 0xFF800000#32 reduces_S512x2048_S512 (.inl rfl) rfl) shapeCasts_S512_S512x1) broadcasts_S512x1_S512x2048)))
        (broadcastTo S512x2048 (shapeCast S512x1
          (multiReduction .add [1] S512
            (exp (subf S (broadcastTo S512x2048 (shapeCast S512x1 (multiReduction .maximumf [1] S512 S 0xFF800000#32 reduces_S512x2048_S512 (.inl rfl) rfl) shapeCasts_S512_S512x1) broadcasts_S512x1_S512x2048)))
            0x00000000#32 reduces_S512x2048_S512 (.inl rfl) rfl)
          shapeCasts_S512_S512x1) broadcasts_S512x1_S512x2048))
      bitsLt_bf16_f32)
    (truncf .bf16 (shapeCast S2048x64 P3 shapeCasts_S1x1x2048x64_S2048x64) bitsLt_bf16_f32)
    (constant S512x64 .f32 0x00000000#32)

/-- The exponentials e^(S[r, t] − max of row r). -/
theorem exps_apply (S : FVec Ideal S512x2048 .f32) (r : Fin 512) (t : Fin 2048) :
    exp (subf S (broadcastTo S512x2048 (shapeCast S512x1 (multiReduction .maximumf [1] S512 S 0xFF800000#32 reduces_S512x2048_S512 (.inl rfl) rfl) shapeCasts_S512_S512x1) broadcasts_S512x1_S512x2048)) (ix2 r t)
      = Ideal.exp (S (ix2 r t) - Finset.univ.fold max negInf (fun u => S (ix2 r u))) := by
  show Ideal.exp (S (ix2 r t) - _) = _
  refine congrArg (fun m => Ideal.exp (S (ix2 r t) - m)) ?_
  exact (column_apply _ r t).trans (rowMax_apply S _ _ r)

/-- The softmax row at (r, e). -/
theorem softBlock_apply (S : FVec Ideal S512x2048 .f32) (P3 : Vec Ideal S1x1x2048x64 .f32) (r : Fin 512) (e : Fin 64) :
    softBlock S P3 (ix2 r e) = softRow (fun t => S (ix2 r t)) (fun t => P3 (ix4 (0 : Fin 1) (0 : Fin 1) t e)) := by
  unfold softBlock softRow
  refine (pv_apply _ _ r e).trans (Finset.sum_congr rfl fun t _ => ?_)
  refine congrArg₂ (· * ·) ?_ (LibUnitAxes.shapeCast_11ab_ab_apply P3 shapeCasts_S1x1x2048x64_S2048x64 t e)
  show Ideal.div _ _ = _
  refine congrArg₂ Ideal.div (exps_apply S r t) ?_
  refine (column_apply _ r t).trans ((rowSum_apply _ _ _ r).trans ?_)
  exact Finset.sum_congr rfl fun u _ => exps_apply S r u

/-! ## The payload -/

/-- The stored block is the body's [512, 64] result re-laid as [1, 1, 512, 64]: entry (0, 0, r, e) is the result at (r, e). -/
theorem store_apply (v : FVec Ideal S512x64 .f32) (u w : Fin 1) (r : Fin 512) (e : Fin 64) :
    k0_pay1 (F := Ideal) v (ix4 u w r e) = v (ix2 r e) :=
  LibUnitAxes.shapeCast_ab_11ab_apply v shapeCasts_S512x64_S1x1x512x64 u w r e

/-- The body's result is the softmax block of its scores. -/
theorem pay_eq (P0 : Vec Ideal S1x1x512x64 .f32) (P1 : Vec Ideal S1x1x64x2048 .f32) (P2 : Vec Ideal S1x512x1 .i32) (P3 : Vec Ideal S1x1x2048x64 .f32) :
    k0_pay2 (F := Ideal) P0 P1 P2 P3 = softBlock (scores P0 P1 P2) P3 := rfl

/-- The body's result at row r, output coordinate e. -/
theorem pay_apply (P0 : Vec Ideal S1x1x512x64 .f32) (P1 : Vec Ideal S1x1x64x2048 .f32) (P2 : Vec Ideal S1x512x1 .i32) (P3 : Vec Ideal S1x1x2048x64 .f32)
    (r : Fin 512) (e : Fin 64) :
    k0_pay2 (F := Ideal) P0 P1 P2 P3 (ix2 r e)
      = softRow (scoreIn (fun d => P0 (ix4 (0 : Fin 1) (0 : Fin 1) r d)) (fun d u => P1 (ix4 (0 : Fin 1) (0 : Fin 1) d u)) (P2 (ix3 (0 : Fin 1) r (0 : Fin 1))))
          (fun t => P3 (ix4 (0 : Fin 1) (0 : Fin 1) t e)) := by
  rw [pay_eq, softBlock_apply]
  exact congrArg (fun sc => softRow sc _) (funext fun t => scores_apply P0 P1 P2 r t)

end Cert.KernelIdeal.Row

end
-- ==== Proof.KernelArray.lean ====
/-
  From the kernel's blocks to its result array.

  The grid has 2 · 16 · 4 points (batch b, head h, query tile q).  At a point the query window is
  rows 512q … 512q + 511 of query[b, h], the key and value windows are all of key[b, h] and
  value[b, h], the mask window is rows 512q … 512q + 511 of the mask column of batch b (the mask
  re-laid as [2, 2048, 1] before the region), and the result window is rows 512q … 512q + 511 of
  out[b, h].  So what a point writes back is the matching block of the attention of the four
  arguments; the 128 result blocks tile the array (row s of out[b, h] belongs to tile s / 512), so
  the array ends holding that function everywhere.
-/
import proofs.«115690_j11252814315826_2_alg».proof.Proof.Gen.KernelIdeal.Value
import proofs.«115690_j11252814315826_2_alg».proof.Proof.KernelRow
import proofs.«115690_j11252814315826_2_alg».proof.Proof.SoftmaxRow
import proofs.«115690_j11252814315826_2_alg».proof.Proof.LibUnitAxes
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The attention of the four arguments as launched on core `c`. -/
abbrev result (c : Dev nD) : S2x16x2048x64.Idx → Elt Ideal .f32 :=
  attn (m ((c : Thread nD τ).loc main_arg0)) (m ((c : Thread nD τ).loc main_arg1)) (m ((c : Thread nD τ).loc main_arg2))
    (m ((c : Thread nD τ).loc main_arg3))

/-! ## The index maps over the grid -/

/-- Every input window moves with the result window: query on all three block coordinates, key and value on batch
    and head, the mask column on batch and query tile; and the result's block coordinates stay in their ranges. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 3) = win0_4.index t (0 : Fin 4) ∧ win0_3.index t (1 : Fin 3) = win0_4.index t (2 : Fin 4)
    ∧ win0_3.index t (2 : Fin 3) = 0
    ∧ win0_4.index t (0 : Fin 4) ≤ 1 ∧ win0_4.index t (1 : Fin 4) ≤ 15 ∧ win0_4.index t (2 : Fin 4) ≤ 3
    ∧ win0_4.index t (3 : Fin 4) = 0 :=
  (by decide +kernel : ∀ t : Fin grid0.N, _)

/-- Every (batch, head, query tile) is some point's result block. -/
theorem idx_onto : ∀ (q0 : Fin 2) (q1 : Fin 16) (q2 : Fin 4), ∃ t : Fin cfg0.N, win0_4.index t = ![q0.val, q1.val, q2.val, 0] :=
  (by decide +kernel : ∀ (q0 : Fin 2) (q1 : Fin 16) (q2 : Fin 4), ∃ t : Fin grid0.N, win0_4.index t = ![q0.val, q1.val, q2.val, 0])

/-! ## The input blocks, read off the arguments -/

theorem qblk_apply (c : Dev nD) (t : Fin cfg0.N) (y : S1x1x512x64.Idx) :
    (iblk m c 0 t : Vec Ideal S1x1x512x64 .f32) y
      = (m ((c : Thread nD τ).loc main_arg0) : S2x16x2048x64.Idx → EReal) (((cfg0.win 0).blk t).view.emb y) := by
  unfold iblk
  rw [View.read_apply]
  exact congrFun (V_main_arg0 m c) _

theorem kblk_apply (c : Dev nD) (t : Fin cfg0.N) (y : S1x1x64x2048.Idx) :
    (iblk m c 1 t : Vec Ideal S1x1x64x2048 .f32) y
      = (m ((c : Thread nD τ).loc main_arg1) : S2x16x64x2048.Idx → EReal) (((cfg0.win 1).blk t).view.emb y) := by
  unfold iblk
  rw [View.read_apply]
  exact congrFun (V_main_arg1 m c) _

theorem vblk_apply (c : Dev nD) (t : Fin cfg0.N) (y : S1x1x2048x64.Idx) :
    (iblk m c 2 t : Vec Ideal S1x1x2048x64 .f32) y
      = (m ((c : Thread nD τ).loc main_arg2) : S2x16x2048x64.Idx → EReal) (((cfg0.win 2).blk t).view.emb y) := by
  unfold iblk
  rw [View.read_apply]
  exact congrFun (V_main_arg2 m c) _

/-- The mask column the region finds: the mask argument re-laid as [2, 2048, 1]. -/
theorem mask_column (c : Dev nD) :
    (V m c main_v0 : S2x2048x1.Idx → BitVec 32)
      = shapeCast S2x2048x1 (m ((c : Thread nD τ).loc main_arg3) : S2x2048.Idx → BitVec 32) shapeCasts_S2x2048_S2x2048x1 := by
  dsimp only [Gen.V, Gen.hostOps0]; after_results; rfl

/-- Its entry (b, s, 0) is mask[b, s]. -/
theorem mask_column_apply (c : Dev nD) (b : Fin 2) (s : Fin 2048) (u : Fin 1) :
    (V m c main_v0 : S2x2048x1.Idx → BitVec 32) (ix3 b s u) = (m ((c : Thread nD τ).loc main_arg3) : S2x2048.Idx → BitVec 32) (ix2 b s) := by
  rw [mask_column]
  refine shapeCast_apply _ shapeCasts_S2x2048_S2x2048x1 _ _ ?_
  have hu : u.val = 0 := by omega
  rw [Shape.rowMajor_val_two, Shape.rowMajor_val_three]
  show b.val * 2048 + s.val = (b.val * 2048 + s.val) * 1 + u.val
  omega

theorem mblk_apply (c : Dev nD) (t : Fin cfg0.N) (y : S1x512x1.Idx) :
    (iblk m c 3 t : Vec Ideal S1x512x1 .i32) y = (V m c main_v0 : S2x2048x1.Idx → BitVec 32) (((cfg0.win 3).blk t).view.emb y) := by
  unfold iblk
  rw [View.read_apply]
  rfl

/-! ## What a point writes back -/

/-- Point `t` writes back its block of the attention of the arguments. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero hz4]
  simp only [View.ld_unit_zero (S := S1x1x512x64) hz4, View.ld_unit_zero (S := S1x1x64x2048) hz4,
    View.ld_unit_zero (S := S1x512x1) hz3, View.ld_unit_zero (S := S1x1x2048x64) hz4]
  obtain ⟨a0, a1, a2, a3, b0, b1, b2, b3, c0, c1, c2, c3, d0, d1, d2, o0, o1, o2, o3⟩ := idx_facts t
  funext y
  obtain ⟨u, v, r, e, rfl⟩ : ∃ (u v : Fin 1) (r : Fin 512) (e : Fin 64), y = ix4 u v r e := ⟨y 0, y 1, y 2, y 3, eq_ix4 y⟩
  have hu : u.val = 0 := by omega
  have hv : v.val = 0 := by omega
  have hr := r.isLt
  have he := e.isLt
  obtain ⟨b, hb⟩ : ∃ b : Fin 2, b.val = win0_4.index t (0 : Fin 4) := ⟨⟨win0_4.index t (0 : Fin 4), by omega⟩, rfl⟩
  obtain ⟨h, hh⟩ : ∃ h : Fin 16, h.val = win0_4.index t (1 : Fin 4) := ⟨⟨win0_4.index t (1 : Fin 4), by omega⟩, rfl⟩
  obtain ⟨s, hs⟩ : ∃ s : Fin 2048, s.val = win0_4.index t (2 : Fin 4) * 512 + r.val :=
    ⟨⟨win0_4.index t (2 : Fin 4) * 512 + r.val, by omega⟩, rfl⟩
  -- the result block's entry (0, 0, r, e) is out[b, h, s, e]
  have hout : ((cfg0.win 4).blk t).view.emb (ix4 u v r e) = ix4 b h s e := by
    funext a; apply Fin.ext
    match a with
    | ⟨0, _⟩ => show win0_4.index t (0 : Fin 4) * 1 + 1 * u.val = b.val; omega
    | ⟨1, _⟩ => show win0_4.index t (1 : Fin 4) * 1 + 1 * v.val = h.val; omega
    | ⟨2, _⟩ => show win0_4.index t (2 : Fin 4) * 512 + 1 * r.val = s.val; omega
    | ⟨3, _⟩ => show win0_4.index t (3 : Fin 4) * 64 + 1 * e.val = e.val; omega
  show k0_pay1 (k0_pay2 (iblk m c 0 t) (iblk m c 1 t) (iblk m c 3 t) (iblk m c 2 t)) (ix4 u v r e)
    = result m c (((cfg0.win 4).blk t).view.emb (ix4 u v r e))
  rw [hout]
  show _ = attnAt (m ((c : Thread nD τ).loc main_arg0)) (m ((c : Thread nD τ).loc main_arg1)) (m ((c : Thread nD τ).loc main_arg2))
    (m ((c : Thread nD τ).loc main_arg3)) b h s e
  unfold attnAt
  refine (Row.store_apply _ u v r e).trans ?_
  refine (Row.pay_apply (iblk m c 0 t) (iblk m c 1 t) (iblk m c 3 t) (iblk m c 2 t) r e).trans ?_
  rw [scoreIn_eq_scoreOut]
  -- each input block, read where the result block's rectangle says
  have hq : ∀ d : Fin 64, (iblk m c 0 t : Vec Ideal S1x1x512x64 .f32) (ix4 (0 : Fin 1) (0 : Fin 1) r d)
      = (m ((c : Thread nD τ).loc main_arg0) : S2x16x2048x64.Idx → EReal) (ix4 b h s d) := fun d => by
    rw [qblk_apply]
    refine congrArg _ (funext fun a => Fin.ext ?_)
    have hd := d.isLt
    match a with
    | ⟨0, _⟩ => show win0_0.index t (0 : Fin 4) * 1 + 1 * 0 = b.val; omega
    | ⟨1, _⟩ => show win0_0.index t (1 : Fin 4) * 1 + 1 * 0 = h.val; omega
    | ⟨2, _⟩ => show win0_0.index t (2 : Fin 4) * 512 + 1 * r.val = s.val; omega
    | ⟨3, _⟩ => show win0_0.index t (3 : Fin 4) * 64 + 1 * d.val = d.val; omega
  have hk : ∀ (d : Fin 64) (w : Fin 2048), (iblk m c 1 t : Vec Ideal S1x1x64x2048 .f32) (ix4 (0 : Fin 1) (0 : Fin 1) d w)
      = (m ((c : Thread nD τ).loc main_arg1) : S2x16x64x2048.Idx → EReal) (ix4 b h d w) := fun d w => by
    rw [kblk_apply]
    refine congrArg _ (funext fun a => Fin.ext ?_)
    have hd := d.isLt
    have hw := w.isLt
    match a with
    | ⟨0, _⟩ => show win0_1.index t (0 : Fin 4) * 1 + 1 * 0 = b.val; omega
    | ⟨1, _⟩ => show win0_1.index t (1 : Fin 4) * 1 + 1 * 0 = h.val; omega
    | ⟨2, _⟩ => show win0_1.index t (2 : Fin 4) * 64 + 1 * d.val = d.val; omega
    | ⟨3, _⟩ => show win0_1.index t (3 : Fin 4) * 2048 + 1 * w.val = w.val; omega
  have hv' : ∀ w : Fin 2048, (iblk m c 2 t : Vec Ideal S1x1x2048x64 .f32) (ix4 (0 : Fin 1) (0 : Fin 1) w e)
      = (m ((c : Thread nD τ).loc main_arg2) : S2x16x2048x64.Idx → EReal) (ix4 b h w e) := fun w => by
    rw [vblk_apply]
    refine congrArg _ (funext fun a => Fin.ext ?_)
    have hw := w.isLt
    match a with
    | ⟨0, _⟩ => show win0_2.index t (0 : Fin 4) * 1 + 1 * 0 = b.val; omega
    | ⟨1, _⟩ => show win0_2.index t (1 : Fin 4) * 1 + 1 * 0 = h.val; omega
    | ⟨2, _⟩ => show win0_2.index t (2 : Fin 4) * 2048 + 1 * w.val = w.val; omega
    | ⟨3, _⟩ => show win0_2.index t (3 : Fin 4) * 64 + 1 * e.val = e.val; omega
  have hm : (iblk m c 3 t : Vec Ideal S1x512x1 .i32) (ix3 (0 : Fin 1) r (0 : Fin 1))
      = (m ((c : Thread nD τ).loc main_arg3) : S2x2048.Idx → BitVec 32) (ix2 b s) := by
    rw [mblk_apply]
    refine Eq.trans (congrArg _ (funext fun a => Fin.ext ?_)) (mask_column_apply m c b s (0 : Fin 1))
    match a with
    | ⟨0, _⟩ => show win0_3.index t (0 : Fin 3) * 1 + 1 * 0 = b.val; omega
    | ⟨1, _⟩ => show win0_3.index t (1 : Fin 3) * 512 + 1 * r.val = s.val; omega
    | ⟨2, _⟩ => show win0_3.index t (2 : Fin 3) * 1 + 1 * 0 = 0; omega
  rw [hm]
  simp only [hq, hk, hv']

/-! ## The cover, and the array after the run -/

/-- An index of the result array is in point `t`'s block iff each coordinate is in the block's range on its axis. -/
theorem mem_blk (t : Fin cfg0.N) (i : S2x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v1).slice (win0_4.rect t)).set ↔ _
  rw [View.set_slice_whole, Rect.mem_set_unit]
  exact Iff.rfl

/-- Every index of the result array is in some point's block: out[b, h, s, ·] is in the block of tile s / 512. -/
theorem cover (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The result array after the run is the attention of the arguments. -/
theorem final (c : Dev nD) : (dats m 0 c).arrAt 4 cfg0.N = result m c :=
  (dats m 0 c).arrAt_eq_of_cover 4 (result m c) (fun t _ => flushed_eq m c t) cover

/-- The kernel's run: the result array at the attention of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.lean ====
/-
  Scaled, additively masked softmax attention: the tiled kernel against the plain reference.

  Both programs compute, for batch b, head h, query row s and output coordinate e,
      out[b, h, s, e] = ∑ₜ softmaxₜ(S[b, h, s, ·]) · value[b, h, t, e],
      S[b, h, s, t]   = ⟨query[b, h, s, ·], key[b, h, ·, t]⟩ · 1/8 + (1 − mask[b, s]) · negBig,
  over 2048 key positions t and 64 head coordinates, with 1/8 = 1/√64 an exact binary value and
  negBig the binary32 value nearest −10¹², the same in both programs.

  On the extended reals the two differ in three ways only.  The kernel scales the query before the
  contraction and the reference scales the contraction; a non-negative real factor distributes over
  any sum of extended reals, so the two scores agree for every input.  The reference takes the row
  maximum against −∞ once more, which changes nothing, and starts its normaliser from 0.  And the
  kernel works on blocks of 512 query rows per (batch, head), whose results tile the output array.
  Changes of float format are the identity on the extended reals, and a matrix product into a zero
  accumulator, a lane reduction and the host's contraction and reduction are the same sums.

  So both result arrays are one function, `Cert.Attn.attn`, of the four arguments.  No claim here
  uses the finiteness of the inputs; the idealization rewrote nothing, so `preserves` has no
  conjunct.
-/
import proofs.«115690_j11252814315826_2_alg».proof.Defs
import proofs.«115690_j11252814315826_2_alg».proof.Proof.Gen.Kernel
import proofs.«115690_j11252814315826_2_alg».proof.Proof.Gen.Kernel.Skeleton
import proofs.«115690_j11252814315826_2_alg».proof.Proof.Gen.Kernel.Launch
import proofs.«115690_j11252814315826_2_alg».proof.Proof.Gen.Kernel.Points
import proofs.«115690_j11252814315826_2_alg».proof.Proof.Gen.Kernel.Frame
import proofs.«115690_j11252814315826_2_alg».proof.Proof.Gen.KernelIdeal
import proofs.«115690_j11252814315826_2_alg».proof.Proof.Gen.KernelIdeal.Skeleton
import proofs.«115690_j11252814315826_2_alg».proof.Proof.Gen.KernelIdeal.Launch
import proofs.«115690_j11252814315826_2_alg».proof.Proof.Gen.KernelIdeal.Points
import proofs.«115690_j11252814315826_2_alg».proof.Proof.Gen.KernelIdeal.Frame
import proofs.«115690_j11252814315826_2_alg».proof.Proof.Gen.KernelIdeal.Value
import proofs.«115690_j11252814315826_2_alg».proof.Proof.Gen.ReferenceIdeal
import proofs.«115690_j11252814315826_2_alg».proof.Proof.Gen.ReferenceIdeal.Run
import proofs.«115690_j11252814315826_2_alg».proof.Proof.Gen.ReferenceIdeal.Read
import proofs.«115690_j11252814315826_2_alg».proof.Proof.Gen.Pre_finite_inputs
import proofs.«115690_j11252814315826_2_alg».proof.Proof.SoftmaxRow
import proofs.«115690_j11252814315826_2_alg».proof.Proof.RefIsAttn
import proofs.«115690_j11252814315826_2_alg».proof.Proof.KernelArray
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the kernel's result array ends at the attention of the arguments
    (its blocks tile the array) and the reference's result at the same function (its operations read one at a time). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq_attn,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
